-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S300000x256 .f32) (main_arg1 : IVec S2x300000 32) (main_arg2 : IVec S300000 32) (main_arg3 : FVec F S256x256 .f32) (main_arg4 : FVec F S256 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S300000x256 : Shape := ⟨2, ![300000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S50000x256 : Shape := ⟨2, ![50000, 256]⟩
abbrev S300000x1 : Shape := ⟨2, ![300000, 1]⟩
abbrev S1x256 : Shape := ⟨2, ![1, 256]⟩
abbrev S12000x256 : Shape := ⟨2, ![12000, 256]⟩

abbrev nBuf : Space → Nat
  | .hbm => 37
  | .vmem => 6
  | .smem => 0
  | _ => 0

abbrev bufTy : (tb : Table) → Fin (tcTables nBuf tb) → BufTy
  | .hbm, ⟨0, _⟩ => ⟨S300000x256, .f32⟩
  | .hbm, ⟨1, _⟩ => ⟨S2x300000, .i32⟩
  | .hbm, ⟨2, _⟩ => ⟨S300000, .i32⟩
  | .hbm, ⟨3, _⟩ => ⟨S256x256, .f32⟩
  | .hbm, ⟨4, _⟩ => ⟨S256, .f32⟩
  | .hbm, ⟨5, _⟩ => ⟨S1x300000, .i32⟩
  | .hbm, ⟨6, _⟩ => ⟨S300000, .i32⟩
  | .hbm, ⟨7, _⟩ => ⟨S1x300000, .i32⟩
  | .hbm, ⟨8, _⟩ => ⟨S300000, .i32⟩
  | .hbm, ⟨9, _⟩ => ⟨S_, .f32⟩
  | .hbm, ⟨10, _⟩ => ⟨S300000x256, .f32⟩
  | .hbm, ⟨11, _⟩ => ⟨S300000x256, .f32⟩
  | .hbm, ⟨12, _⟩ => ⟨S_, .f32⟩
  | .hbm, ⟨13, _⟩ => ⟨S50000x256, .f32⟩
  | .hbm, ⟨14, _⟩ => ⟨S300000x1, .i32⟩
  | .hbm, ⟨15, _⟩ => ⟨S50000x256, .f32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x256, .f32⟩
  | .hbm, ⟨25, _⟩ => ⟨S_, .i32⟩
  | .hbm, ⟨26, _⟩ => ⟨S300000, .i32⟩
  | .hbm, ⟨27, _⟩ => ⟨S300000, .i1⟩
  | .hbm, ⟨28, _⟩ => ⟨S_, .i32⟩
  | .hbm, ⟨29, _⟩ => ⟨S300000, .i32⟩
  | .hbm, ⟨30, _⟩ => ⟨S300000, .i32⟩
  | .hbm, ⟨31, _⟩ => ⟨S300000, .i32⟩
  | .hbm, ⟨32, _⟩ => ⟨S300000x1, .i32⟩
  | .hbm, ⟨33, _⟩ => ⟨S300000x256, .f32⟩
  | .hbm, ⟨34, _⟩ => ⟨S300000x256, .f32⟩
  | .hbm, ⟨35, _⟩ => ⟨S1x256, .f32⟩
  | .hbm, ⟨36, _⟩ => ⟨S300000x256, .f32⟩
  | .local _ .vmem, ⟨0, _⟩ => ⟨S12000x256, .f32⟩
  | .local _ .vmem, ⟨1, _⟩ => ⟨S12000x256, .f32⟩
  | .local _ .vmem, ⟨2, _⟩ => ⟨S256x256, .f32⟩
  | .local _ .vmem, ⟨3, _⟩ => ⟨S1x256, .f32⟩
  | .local _ .vmem, ⟨4, _⟩ => ⟨S12000x256, .f32⟩
  | .local _ .vmem, ⟨5, _⟩ => ⟨S12000x256, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000x256 : S_.BroadcastsInDim S300000x256 (![] : Fin 0 → Fin S300000x256.rank)
  bcast_S_S50000x256 : S_.BroadcastsInDim S50000x256 (![] : Fin 0 → Fin S50000x256.rank)
  bcast_S300000_S300000x1_0 : S300000.BroadcastsInDim S300000x1 (![0] : Fin 1 → Fin S300000x1.rank)
  bcast_S_S300000 : S_.BroadcastsInDim S300000 (![] : Fin 0 → Fin S300000.rank)
  shapeCasts_S256_S1x256 : S256.ShapeCasts S1x256
  inb_S12000x256_S12000x256_0_0 : ∀ a, (![0, 0] : Fin 2 → Nat) a + S12000x256.size a ≤ S12000x256.size a
  h_S12000x256 : 0 < S12000x256.numel
  shapeCasts_S12000x256_S12000x256 : S12000x256.ShapeCasts S12000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S12000x256 : S1x256.Broadcasts S12000x256
  scatter_S50000x256_S300000x1_S300000x256_1_0_0_1_wf : ScatterDims.WF S50000x256 S300000x1 S300000x256 [1] [0] [0] 1
  gather_S50000x256_S300000x1_S300000x256_1_0_n_n_0_1_1256_wf : GatherDims.WF S50000x256 S300000x1 S300000x256 [1] [0] [] [0] [] 1 ![1, 256]
  gather_S300000x256_S300000x1_S300000x256_1_0_n_n_0_1_1256_wf : GatherDims.WF S300000x256 S300000x1 S300000x256 [1] [0] [] [0] [] 1 ![1, 256]
  dot_S12000x256_S256x256_S12000x256_1_1_0_0_n_n_wf : DotDims.WF S12000x256 S256x256 S12000x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12000x256.size a ≤ S300000x256.size a
  hwx0_0 : ∀ i : grid0.Coords, EltTy.bits .f32 = 32 ∨ (Rect.block (s := S300000x256) S12000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S12000x256.size a ≤ S300000x256.size a
  hwx0_3 : ∀ i : grid0.Coords, EltTy.bits .f32 = 32 ∨ (Rect.block (s := S300000x256) S12000x256.size (cc0_transform_3 i) (hinb0_3 i)).WholeWords (EltTy.packing .f32)

variable [Facts₀]

def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def gather_S300000x256_S300000x1_S300000x256_1_0_n_n_0_1_1256 : GatherDims S300000x256 S300000x1 S300000x256 where
  offsetDims := [1]
  collapsedSliceDims := [0]
  operandBatchingDims := []
  startIndicesBatchingDims := []
  startIndexMap := [0]
  indexVectorDim := 1
  sliceSizes := ![1, 256]
  wf := gather_S300000x256_S300000x1_S300000x256_1_0_n_n_0_1_1256_wf
def dot_S12000x256_S256x256_S12000x256_1_1_0_0_n_n : DotDims S12000x256 S256x256 S12000x256 where
  lhsContracting := [1]
  rhsContracting := [1]
  lhsNonContracting := [0]
  rhsNonContracting := [0]
  lhsBatch := []
  rhsBatch := []
  wf := dot_S12000x256_S256x256_S12000x256_1_1_0_0_n_n_wf

abbrev win0_0 : Pipeline.Window sig grid0 :=
  Pipeline.Window.ofSpec (Memref.whole main_v23) S12000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S12000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S300000x256 : Shape := ⟨2, ![300000, 256]⟩
abbrev S2x300000 : Shape := ⟨2, ![2, 300000]⟩
abbrev S300000 : Shape := ⟨1, ![300000]⟩
abbrev S256x256 : Shape := ⟨2, ![256, 256]⟩
abbrev S256 : Shape := ⟨1, ![256]⟩
abbrev S1x300000 : Shape := ⟨2, ![1, 300000]⟩
abbrev S_ : Shape := ⟨0, ![]⟩
abbrev S50000x256 : Shape := ⟨2, ![50000, 256]⟩
abbrev S300000x1 : Shape := ⟨2, ![300000, 1]⟩
abbrev S1x256 : Shape := ⟨2, ![1, 256]⟩

abbrev nBuf : Space → Nat
  | .hbm => 40
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S2x300000, .i32⟩
  | .hbm, ⟨2, _⟩ => ⟨S300000, .i32⟩
  | .hbm, ⟨3, _⟩ => ⟨S256x256, .f32⟩
  | .hbm, ⟨4, _⟩ => ⟨S256, .f32⟩
  | .hbm, ⟨5, _⟩ => ⟨S1x300000, .i32⟩
  | .hbm, ⟨6, _⟩ => ⟨S300000, .i32⟩
  | .hbm, ⟨7, _⟩ => ⟨S1x300000, .i32⟩
  | .hbm, ⟨8, _⟩ => ⟨S300000, .i32⟩
  | .hbm, ⟨9, _⟩ => ⟨S_, .f32⟩
  | .hbm, ⟨10, _⟩ => ⟨S300000x256, .f32⟩
  | .hbm, ⟨11, _⟩ => ⟨S300000x256, .f32⟩
  | .hbm, ⟨12, _⟩ => ⟨S_, .f32⟩
  | .hbm, ⟨13, _⟩ => ⟨S50000x256, .f32⟩
  | .hbm, ⟨14, _⟩ => ⟨S300000x1, .i32⟩
  | .hbm, ⟨15, _⟩ => ⟨S50000x256, .f32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x256, .f32⟩
  | .hbm, ⟨25, _⟩ => ⟨S_, .i32⟩
  | .hbm, ⟨26, _⟩ => ⟨S300000, .i32⟩
  | .hbm, ⟨27, _⟩ => ⟨S300000, .i1⟩
  | .hbm, ⟨28, _⟩ => ⟨S_, .i32⟩
  | .hbm, ⟨29, _⟩ => ⟨S300000, .i32⟩
  | .hbm, ⟨30, _⟩ => ⟨S300000, .i32⟩
  | .hbm, ⟨31, _⟩ => ⟨S300000, .i32⟩
  | .hbm, ⟨32, _⟩ => ⟨S300000x1, .i32⟩
  | .hbm, ⟨33, _⟩ => ⟨S300000x256, .f32⟩
  | .hbm, ⟨34, _⟩ => ⟨S300000x256, .f32⟩
  | .hbm, ⟨35, _⟩ => ⟨S256x256, .f32⟩
  | .hbm, ⟨36, _⟩ => ⟨S300000x256, .f32⟩
  | .hbm, ⟨37, _⟩ => ⟨S1x256, .f32⟩
  | .hbm, ⟨38, _⟩ => ⟨S300000x256, .f32⟩
  | .hbm, ⟨39, _⟩ => ⟨S300000x256, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000x256 : S_.BroadcastsInDim S300000x256 (![] : Fin 0 → Fin S300000x256.rank)
  bcast_S_S50000x256 : S_.BroadcastsInDim S50000x256 (![] : Fin 0 → Fin S50000x256.rank)
  bcast_S300000_S300000x1_0 : S300000.BroadcastsInDim S300000x1 (![0] : Fin 1 → Fin S300000x1.rank)
  bcast_S_S300000 : S_.BroadcastsInDim S300000 (![] : Fin 0 → Fin S300000.rank)
  transposes_S256x256_S256x256_1_0 : S256x256.Transposes [1, 0] S256x256
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  scatter_S50000x256_S300000x1_S300000x256_1_0_0_1_wf : ScatterDims.WF S50000x256 S300000x1 S300000x256 [1] [0] [0] 1
  gather_S50000x256_S300000x1_S300000x256_1_0_n_n_0_1_1256_wf : GatherDims.WF S50000x256 S300000x1 S300000x256 [1] [0] [] [0] [] 1 ![1, 256]
  gather_S300000x256_S300000x1_S300000x256_1_0_n_n_0_1_1256_wf : GatherDims.WF S300000x256 S300000x1 S300000x256 [1] [0] [] [0] [] 1 ![1, 256]
  dot_S300000x256_S256x256_S300000x256_1_0_0_1_n_n_wf : DotDims.WF S300000x256 S256x256 S300000x256 [1] [0] [0] [1] [] []

variable [Facts₀]

def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def gather_S300000x256_S300000x1_S300000x256_1_0_n_n_0_1_1256 : GatherDims S300000x256 S300000x1 S300000x256 where
  offsetDims := [1]
  collapsedSliceDims := [0]
  operandBatchingDims := []
  startIndicesBatchingDims := []
  startIndexMap := [0]
  indexVectorDim := 1
  sliceSizes := ![1, 256]
  wf := gather_S300000x256_S300000x1_S300000x256_1_0_n_n_0_1_1256_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf

class Facts : Prop extends Facts₀ where

variable [Facts]
-- ==== Proof.Linear.lean ====
/-
  The linear update of the edge messages as ONE function of its operands, entry by entry.

  The weight is stored as [out, in] (the torch convention y = x · Wᵀ + b), so entry (e, j) of the result is
      Σ_k x(e, k) · w(j, k) + b(j):
  row e of the messages against row j of the weight, plus the bias entry of column j. No transposed copy of the
  weight appears in the formula: a product that contracts both operands on their last axis and a product against a
  transposed weight read the same entries of w.
-/
import Idealize.ShloMosaic.PureOps.Ideal
import Idealize.ShloMosaic.Lib.ValueIdx

noncomputable section

open scoped BigOperators

namespace Cert.Linear

open Idealize.ShloMosaic Idealize.ShloMosaic.ValueIdx

/-- `x · wᵀ + b` over the extended reals: 300000 edge rows of width 256, a 256 × 256 weight, a bias of length 256. -/
def affine (x : (⟨2, ![300000, 256]⟩ : Shape).Idx → EReal) (w : (⟨2, ![256, 256]⟩ : Shape).Idx → EReal)
    (b : (⟨1, ![256]⟩ : Shape).Idx → EReal) : (⟨2, ![300000, 256]⟩ : Shape).Idx → EReal :=
  fun i => (∑ k : Fin 256, x (ix2 (n0 := 300000) (n1 := 256) (i 0) k) * w (ix2 (n0 := 256) (n1 := 256) (i 1) k))
    + b (ix1 (n := 256) (i 1))

/-- The same, at an entry named by its two coordinates. -/
theorem affine_apply (x : (⟨2, ![300000, 256]⟩ : Shape).Idx → EReal) (w : (⟨2, ![256, 256]⟩ : Shape).Idx → EReal)
    (b : (⟨1, ![256]⟩ : Shape).Idx → EReal) (e : Fin 300000) (j : Fin 256) :
    affine x w b (ix2 e j) = (∑ k : Fin 256, x (ix2 e k) * w (ix2 j k)) + b (ix1 j) := rfl

end Cert.Linear

end
-- ==== Proof.RefLinear.lean ====
/-
  The reference's last five operations — transpose the weight, contract the messages' second axis with the transposed
  weight's first, lay the bias out as one row, repeat that row down the 300000 rows, add — are the linear update
  `Cert.Linear.affine` of the messages: entry (k, j) of the transposed weight is entry (j, k) of the weight, so the
  contraction is Σ_k x(e, k) · w(j, k); entry (e, j) of the repeated bias row is b(j). The messages themselves (the
  rectified edge features summed into their destination nodes, gathered back along the source nodes, less the reverse
  edge's features) stay one unopened term.
-/
import proofs.«179085_j1760936591674_2_alg».proof.Proof.Gen.ReferenceIdeal.Read
import proofs.«179085_j1760936591674_2_alg».proof.Proof.Linear

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result is the linear update of its messages by the weight and the bias as given. -/
theorem result_eq (x0 : (⟨S300000x256, .f32⟩ : BufTy).Contents (Elt Ideal)) (x1 : (⟨S2x300000, .i32⟩ : BufTy).Contents (Elt Ideal))
    (x2 : (⟨S300000, .i32⟩ : BufTy).Contents (Elt Ideal)) (x3 : (⟨S256x256, .f32⟩ : BufTy).Contents (Elt Ideal))
    (x4 : (⟨S256, .f32⟩ : BufTy).Contents (Elt Ideal)) :
    val_main_v27 (F := Ideal) x0 x1 x2 x3 x4 = Cert.Linear.affine (val_main_v22 (F := Ideal) x0 x1 x2) x3 x4 := by
  funext i
  obtain ⟨e, j, rfl⟩ : ∃ (e : Fin 300000) (j : Fin 256), i = ix2 e j := ⟨i 0, i 1, eq_ix2 i⟩
  have hl : ∀ k : Fin 256, lidx_main_v24 (ix2 e j) k = ix2 e k := fun k =>
    funext fun a => Fin.ext (by match a with | ⟨0, _⟩ => rfl | ⟨1, _⟩ => rfl)
  have hr : ∀ k : Fin 256, idx_main_v23 (ridx_main_v24 (ix2 e j) k) = ix2 j k := fun k =>
    funext fun a => Fin.ext (by match a with | ⟨0, _⟩ => rfl | ⟨1, _⟩ => rfl)
  have hb : idx_main_v25 (idx_main_v26 (ix2 e j)) = ix1 j :=
    funext fun a => Fin.ext (by match a with | ⟨0, _⟩ => rfl)
  rw [val_main_v27_apply, val_main_v24_apply, val_main_v26_apply, val_main_v25_apply, Cert.Linear.affine_apply]
  simp only [val_main_v23_apply, hl, hr, hb, Ideal.addf_def]

end Cert.ReferenceIdeal.RefValue

end
-- ==== Proof.LibDotNT.lean ====
/-
  The dimension numbers of a matrix product with the right operand transposed — both operands contracted on their last axis,
  no batch axes — read at an index. At result position (i, q) and contraction position k the left operand is read at (i, k) and the
  right at (q, k); the contraction shape has one axis of the shared extent, so the sum over it is the ordinary sum over k of
  l(i, k) · r(q, k): a row of the left against a row of the right. A matrix unit product of that form, at the ideal instance, reads as
  its accumulator plus that sum, whatever the extents.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat} (d : DotDims ⟨2, ![M, K]⟩ ⟨2, ![N, K]⟩ ⟨2, ![M, N]⟩)

/-- The dimension numbers: [1] × [1] contracted, [0] and [0] kept, no batch axes. -/
structure IsNT : Prop where
  lc : d.lhsContracting = [1]
  rc : d.rhsContracting = [1]
  ln : d.lhsNonContracting = [0]
  rn : d.rhsNonContracting = [0]
  lb : d.lhsBatch = []
  rb : d.rhsBatch = []

variable {d}

theorem rank_one (h : IsNT d) : d.contr.rank = 1 := by rw [d.rank_contr, h.lc]; rfl

theorem size_zero (h : IsNT d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsNT d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsNT d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsNT d) (j : (⟨2, ![M, N]⟩ : Shape).Idx) (k : d.contr.Idx) :
    (d.lhsIdx j k 1).val = (pos h k).val := by
  rw [d.lhsIdx_val_of_single h.lc j k]; rfl

theorem rhsIdx_row (h : IsNT d) (j : (⟨2, ![M, N]⟩ : Shape).Idx) (k : d.contr.Idx) :
    (d.rhsIdx j k 0).val = (j 1).val := by
  have hb : (0 : Fin 2) ∉ d.rhsBatch := by rw [h.rb]; exact List.not_mem_nil
  have hn : (0 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem rhsIdx_col (h : IsNT d) (j : (⟨2, ![M, N]⟩ : Shape).Idx) (k : d.contr.Idx) :
    (d.rhsIdx j k 1).val = (pos h k).val := by
  rw [d.rhsIdx_val_of_single h.rc j k]; rfl

theorem lhsIdx_eq (h : IsNT d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsNT d) (j : (⟨2, ![M, N]⟩ : Shape).Idx) (k : d.contr.Idx) :
    d.rhsIdx j k = ix2 (j 1) (pos h k) := by
  funext a; apply Fin.ext
  match a with
  | ⟨0, _⟩ => exact rhsIdx_row h j k
  | ⟨1, _⟩ => exact rhsIdx_col h j k

/-- THE CONTRACTION SUM: the sum over k below the shared extent of l(i, k) · r(q, k). -/
theorem sum_eq (h : IsNT d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 (j 1) k) := by
  rw [← Equiv.sum_comp (pos h) (fun k : Fin K => l (ix2 (j 0) k) * r (ix2 (j 1) k))]
  exact Finset.sum_congr rfl fun k _ => by rw [lhsIdx_eq h j k, rhsIdx_eq h j k]; rfl

/-- A matrix unit product of that form into any accumulator, at the ideal instance and at an index. -/
theorem matmul_apply (h : IsNT d) (prec : Option ContractPrecision) {φ₁ φ₂ : FTy}
    (l : FVec Ideal ⟨2, ![M, K]⟩ φ₁) (r : FVec Ideal ⟨2, ![N, K]⟩ φ₂) (acc : FVec Ideal ⟨2, ![M, N]⟩ .f32) (j : (⟨2, ![M, N]⟩ : Shape).Idx) :
    matmul d prec l r acc j = acc j + ∑ k : Fin K, l (ix2 (j 0) k) * r (ix2 (j 1) k) :=
  (Ideal.matmul_apply d prec l r acc j).trans (congrArg (acc j + ·) (sum_eq h l r j))

/-- Into a zero accumulator: just the sum. -/
theorem matmul_zero_apply (h : IsNT d) (prec : Option ContractPrecision) {φ₁ φ₂ : FTy}
    (l : FVec Ideal ⟨2, ![M, K]⟩ φ₁) (r : FVec Ideal ⟨2, ![N, K]⟩ φ₂) (j : (⟨2, ![M, N]⟩ : Shape).Idx) :
    matmul d prec l r (constant (F := Ideal) ⟨2, ![M, N]⟩ .f32 0x00000000#32) j = ∑ k : Fin K, l (ix2 (j 0) k) * r (ix2 (j 1) k) :=
  (Ideal.matmul_constant_zero_apply d prec l r j).trans (sum_eq h l r j)

end Idealize.ShloMosaic.DotNT

end
-- ==== Proof.Payload.lean ====
/-
  What the kernel body stores at one grid point, read at an entry of its 12000-row block.

  The body multiplies the block of messages by the weight, contracting BOTH on their last axis into a zero accumulator
  (row p of the block against row q of the weight), and adds the bias row repeated down the block. So entry (p, q) of
  the stored value is Σ_k x(p, k) · w(q, k) + b(0, q).
-/
import proofs.«179085_j1760936591674_2_alg».proof.Proof.Gen.KernelIdeal.Skeleton
import proofs.«179085_j1760936591674_2_alg».proof.Proof.LibDotNT
import Idealize.ShloMosaic.Lib.ValueLayout
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- The body's product contracts the last axis of both operands and has no batch axes. -/
theorem dot_isNT : DotNT.IsNT dot_S12000x256_S256x256_S12000x256_1_1_0_0_n_n := ⟨rfl, rfl, rfl, rfl, rfl, rfl⟩

/-- Entry (p, q) of the stored block: row p of the messages' block against row q of the weight, plus the bias at q. -/
theorem stored_apply (x0 : FVec Ideal S12000x256 .f32) (x1 : FVec Ideal S256x256 .f32) (x2 : FVec Ideal S1x256 .f32)
    (p : Fin 12000) (q : Fin 256) :
    k0_pay1 (F := Ideal) x0 x1 x2 (ix2 p q) = (∑ k : Fin 256, x0 (ix2 p k) * x1 (ix2 q k)) + x2 (ix2 (0 : Fin 1) q) := by
  unfold k0_pay1
  rw [addf_apply, shapeCast_self, shapeCast_self, DotNT.matmul_zero_apply dot_isNT, broadcastTo_1b_ab_apply]

end Cert.KernelIdeal.Hand

end
-- ==== Proof.HostPrefix.lean ====
/-
  What the kernel's program has computed when its one tiled region starts.

  Before the region the program forms the messages with the SAME operations, in the same order and on the same
  operands, as the reference does: rectify the edge features, sum them into their destination nodes, gather the node
  sums back along the source nodes, subtract the reverse edge's rectified features. So the array the region's first
  window stages is the reference's messages term, read as one unopened function of the three arguments it depends on.
  The bias reaches the region reshaped to one row.
-/
import proofs.«179085_j1760936591674_2_alg».proof.Proof.Gen.KernelIdeal.Frame
import proofs.«179085_j1760936591674_2_alg».proof.Proof.Gen.ReferenceIdeal.Read
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

set_option maxHeartbeats 2000000 in
/-- The messages array as the region finds it is the reference's messages term of the arguments as launched. -/
theorem messages_eq (c : Dev nD) :
    (V m c main_v23 : (⟨S300000x256, .f32⟩ : BufTy).Contents (Elt F))
      = Cert.ReferenceIdeal.Read.val_main_v22 (F := F) (m ((c : Thread nD τ).loc main_arg0))
          (m ((c : Thread nD τ).loc main_arg1)) (m ((c : Thread nD τ).loc main_arg2)) := by
  dsimp only [V, hostOps0]
  after_results_simp <;> rfl

set_option maxHeartbeats 2000000 in
/-- The bias as the region finds it: the bias vector cast to one row. -/
theorem bias_row_eq (c : Dev nD) :
    (V m c main_v24 : (⟨S1x256, .f32⟩ : BufTy).Contents (Elt F))
      = shapeCast S1x256 (m ((c : Thread nD τ).loc main_arg4)) shapeCasts_S256_S1x256 := by
  dsimp only [V, hostOps0]
  after_results_simp <;> rfl

end Cert.KernelIdeal.Hand

end
-- ==== Proof.KernelValue.lean ====
/-
  The kernel's result array after its run: the linear update of the messages, as one whole-array function.

  The grid has 25 points; point t stages rows 12000·t … 12000·t + 11999 of the messages, the whole weight and the one
  bias row, and writes back the same rows of the result. What point t stores at (p, q) is
  Σ_k x(12000·t + p, k) · w(q, k) + b(q), which is entry (12000·t + p, q) of the linear update; the 25 row blocks tile
  the 300000 rows (row r lies in block r / 12000), so the array ends holding the linear update everywhere.
-/
import proofs.«179085_j1760936591674_2_alg».proof.Proof.Gen.KernelIdeal.Value
import proofs.«179085_j1760936591674_2_alg».proof.Proof.Payload
import proofs.«179085_j1760936591674_2_alg».proof.Proof.HostPrefix
import proofs.«179085_j1760936591674_2_alg».proof.Proof.Linear
import Idealize.ShloMosaic.Lib.Pipeline.Value
import Idealize.ShloMosaic.Lib.ValueLayout
import Idealize.ShloMosaic.Lib.ValueIdx

noncomputable section

open scoped BigOperators

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block indices over the 25 points: the messages and the result move one row block per point, the weight and the
    bias row stay at block (0, 0). -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry against one entry of the linear update, over blocks and arrays as variables: if the messages'
    block is rows T·12000 … of M, the weight's block is W and the bias row is b, then what the body stores at y is the
    linear update at the entry T·12000 rows further down. -/
theorem point_entry (x0 : FVec Ideal S12000x256 .f32) (x1 : FVec Ideal S256x256 .f32) (x2 : FVec Ideal S1x256 .f32)
    (M : (⟨2, ![300000, 256]⟩ : Shape).Idx → EReal) (W : (⟨2, ![256, 256]⟩ : Shape).Idx → EReal)
    (b : (⟨1, ![256]⟩ : Shape).Idx → EReal) (T : Nat)
    (h0 : ∀ (p : Fin 12000) (k : Fin 256) (e : Fin 300000), e.val = T * 12000 + p.val → x0 (ix2 p k) = M (ix2 e k))
    (h1 : ∀ q k : Fin 256, x1 (ix2 q k) = W (ix2 q k))
    (h2 : ∀ q : Fin 256, x2 (ix2 (0 : Fin 1) q) = b (ix1 q))
    (y : (⟨2, ![12000, 256]⟩ : Shape).Idx) (i : (⟨2, ![300000, 256]⟩ : Shape).Idx)
    (hi0 : (i 0).val = T * 12000 + (y 0).val) (hi1 : (i 1).val = (y 1).val) :
    k0_pay1 (F := Ideal) x0 x1 x2 y = Cert.Linear.affine M W b i := by
  obtain ⟨p, q, rfl⟩ : ∃ (p : Fin 12000) (q : Fin 256), y = ix2 p q := ⟨y 0, y 1, eq_ix2 y⟩
  obtain ⟨e, j, rfl⟩ : ∃ (e : Fin 300000) (j : Fin 256), i = ix2 e j := ⟨i 0, i 1, eq_ix2 i⟩
  obtain rfl : j = q := Fin.ext hi1
  rw [stored_apply, Cert.Linear.affine_apply, h2]
  exact congrArg (· + b (ix1 j)) (Finset.sum_congr rfl fun k _ => by rw [h0 p k e hi0, h1])

/-- The messages' block at point t is rows t·12000 … of the messages array as the region finds it. -/
theorem messages_block (c : Dev nD) (t : Fin cfg0.N) (p : Fin 12000) (k : Fin 256) (e : Fin 300000)
    (he : e.val = t.val * 12000 + p.val) :
    (iblk m c 0 t : FVec Ideal S12000x256 .f32) (ix2 p k) = (V m c main_v23 : (⟨S300000x256, .f32⟩ : BufTy).Contents (Elt Ideal)) (ix2 e k) := by
  obtain ⟨e0, e1, -⟩ := block_index t
  unfold iblk
  rw [View.read_apply]
  show V m c main_v23 _ = V m c main_v23 _
  refine congrArg (V m c main_v23) ?_
  funext a
  apply Fin.ext
  match a with
  | ⟨0, _⟩ => show win0_0.index t (0 : Fin 2) * 12000 + 1 * p.val = e.val; rw [e0, he]; omega
  | ⟨1, _⟩ => show win0_0.index t (1 : Fin 2) * 256 + 1 * k.val = k.val; rw [e1]; omega

/-- The weight's block at every point is the weight as launched. -/
theorem weight_block (c : Dev nD) (t : Fin cfg0.N) (q k : Fin 256) :
    (iblk m c 1 t : FVec Ideal S256x256 .f32) (ix2 q k) = (m ((c : Thread nD τ).loc main_arg3) : (⟨S256x256, .f32⟩ : BufTy).Contents (Elt Ideal)) (ix2 q k) := by
  obtain ⟨-, -, e2, e3, -⟩ := block_index t
  unfold iblk
  rw [View.read_apply]
  show V m c main_arg3 _ = _
  rw [V_main_arg3]
  refine congrArg (m ((c : Thread nD τ).loc main_arg3)) ?_
  funext a
  apply Fin.ext
  match a with
  | ⟨0, _⟩ => show win0_1.index t (0 : Fin 2) * 256 + 1 * q.val = q.val; rw [e2]; omega
  | ⟨1, _⟩ => show win0_1.index t (1 : Fin 2) * 256 + 1 * k.val = k.val; rw [e3]; omega

/-- The bias row's block at every point holds the bias vector. -/
theorem bias_block (c : Dev nD) (t : Fin cfg0.N) (q : Fin 256) :
    (iblk m c 2 t : FVec Ideal S1x256 .f32) (ix2 (0 : Fin 1) q) = (m ((c : Thread nD τ).loc main_arg4) : (⟨S256, .f32⟩ : BufTy).Contents (Elt Ideal)) (ix1 q) := by
  obtain ⟨-, -, -, -, e4, e5, -⟩ := block_index t
  unfold iblk
  rw [View.read_apply]
  show V m c main_v24 _ = _
  rw [bias_row_eq]
  refine (congrArg (shapeCast S1x256 (m ((c : Thread nD τ).loc main_arg4)) shapeCasts_S256_S1x256) ?_).trans
    (shapeCast_a_1a_apply _ _ (0 : Fin 1) q)
  funext a
  apply Fin.ext
  match a with
  | ⟨0, _⟩ => show win0_2.index t (0 : Fin 2) * 1 + 1 * 0 = 0; rw [e4]
  | ⟨1, _⟩ => show win0_2.index t (1 : Fin 2) * 256 + 1 * q.val = q.val; rw [e5]; omega

/-- What point t writes back is block t of the linear update of the messages as the region finds them. -/
theorem flushed_eq (c : Dev nD) (t : Fin cfg0.N) :
    (dats m 0 c).flushed 3 t = ((cfg0.win 3).blk t).view.read (Elt Ideal)
      (Cert.Linear.affine (V m c main_v23) (m ((c : Thread nD τ).loc main_arg3)) (m ((c : Thread nD τ).loc main_arg4))) := by
  rw [flushed3]
  unfold out0_3
  rw [View.canon_unit_zero origin]
  simp only [View.ld_unit_zero (S := S12000x256) origin, View.ld_unit_zero (S := S256x256) origin,
    View.ld_unit_zero (S := S1x256) origin]
  obtain ⟨-, -, -, -, -, -, e6, e7⟩ := block_index t
  funext y
  show k0_pay1 (iblk m c 0 t) (iblk m c 1 t) (iblk m c 2 t) y
    = Cert.Linear.affine (V m c main_v23) (m ((c : Thread nD τ).loc main_arg3)) (m ((c : Thread nD τ).loc main_arg4))
        (((cfg0.win 3).blk t).view.emb y)
  refine point_entry (iblk m c 0 t) (iblk m c 1 t) (iblk m c 2 t) (V m c main_v23) (m ((c : Thread nD τ).loc main_arg3))
    (m ((c : Thread nD τ).loc main_arg4)) t.val (fun p k e he => messages_block m c t p k e he)
    (fun q k => weight_block m c t q k) (fun q => bias_block m c t q) y (((cfg0.win 3).blk t).view.emb y) ?_ ?_
  · show win0_3.index t (0 : Fin 2) * 12000 + 1 * (y 0).val = t.val * 12000 + (y 0).val
    rw [e6]; omega
  · show win0_3.index t (1 : Fin 2) * 256 + 1 * (y 1).val = (y 1).val
    rw [e7]; omega

/-- An index of the result array is in point t's block iff each coordinate is in the block's range on its axis. -/
theorem mem_block (t : Fin cfg0.N) (i : S300000x256.Idx) :
    i ∈ ((cfg0.win 3).blk t).view.set ↔ ∀ a : Fin 2, win0_3.index t a * S12000x256.size a ≤ (i a).val
      ∧ (i a).val < win0_3.index t a * S12000x256.size a + S12000x256.size a := by
  show i ∈ ((View.whole main_v25).slice (win0_3.rect t)).set ↔ _
  rw [View.set_slice_whole, Rect.mem_set_unit]
  exact Iff.rfl

/-- Every entry of the result lies in the block of the point its row falls to: row r in block r / 12000. -/
theorem covered (i : S300000x256.Idx) :
    ∃ t : Fin cfg0.N, (cfg0.win 3).flush t = true ∧ i ∈ ((cfg0.win 3).blk t).view.set := by
  have hi0 : (i 0).val < 300000 := (i 0).isLt
  have hi1 : (i 1).val < 256 := (i 1).isLt
  have hN : cfg0.N = 25 := N_0
  obtain ⟨t, ht⟩ : ∃ t : Fin cfg0.N, t.val = (i 0).val / 12000 := ⟨⟨(i 0).val / 12000, by rw [hN]; omega⟩, rfl⟩
  obtain ⟨-, -, -, -, -, -, e6, e7⟩ := block_index t
  refine ⟨t, flush0_3 t, ?_⟩
  rw [mem_block]
  intro a
  match a with
  | ⟨0, _⟩ =>
    show win0_3.index t (0 : Fin 2) * 12000 ≤ (i 0).val ∧ (i 0).val < win0_3.index t (0 : Fin 2) * 12000 + 12000
    rw [e6, ht]; omega
  | ⟨1, _⟩ =>
    show win0_3.index t (1 : Fin 2) * 256 ≤ (i 1).val ∧ (i 1).val < win0_3.index t (1 : Fin 2) * 256 + 256
    rw [e7]; omega

/-- The result array after the run is the linear update of the messages as the region finds them. -/
theorem final (c : Dev nD) : (dats m 0 c).arrAt 3 cfg0.N
    = Cert.Linear.affine (V m c main_v23) (m ((c : Thread nD τ).loc main_arg3)) (m ((c : Thread nD τ).loc main_arg4)) :=
  (dats m 0 c).arrAt_eq_of_cover 3 _ (fun t _ => flushed_eq m c t) covered

/-- The run, read: the result array at the linear update of the reference's messages term of the arguments as
    launched, the arguments unchanged. -/
theorem run : θ_run defs (onTc (τ := τ) (main (F := Ideal))) ⟨m, fun _ => 0, ρ⟩ fun r => ∀ c : Dev nD,
      r.2.mem ((c : Thread nD τ).loc main_v25)
        = Cert.Linear.affine (Cert.ReferenceIdeal.Read.val_main_v22 (F := Ideal) (m ((c : Thread nD τ).loc main_arg0))
            (m ((c : Thread nD τ).loc main_arg1)) (m ((c : Thread nD τ).loc main_arg2)))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [messages_eq])), (h c).2⟩)
    (Value.run_blocks m ρ)

end Cert.KernelIdeal.Hand

end
-- ==== Proof.lean ====
/-
  A message-passing update on a graph of 300000 edges and 50000 nodes, with 256 features per edge: rectify the edge
  features, sum them into their destination nodes, gather the node sums back along the source nodes, subtract the
  reverse edge's rectified features — these are the messages —, then apply one linear layer y = x · Wᵀ + b.

  The kernel's program and the reference form the messages by the same operations on the same operands, so the
  messages are carried as one unopened function of the edge features and the two index arrays. They differ only in
  the linear layer. The kernel tiles the 300000 rows into 25 blocks of 12000 and, per block, contracts the messages
  and the weight on their LAST axes (row against row of W), then adds the bias row; the reference transposes W,
  contracts the messages' last axis with the transposed weight's first, and adds the bias repeated down the rows.
  Over the extended reals both give, at entry (e, j),   Σ_k x(e, k) · W(j, k) + b(j)   — the same sum over the same
  256 products in the same order, so no law of arithmetic beyond the definitions is used, and the inputs' finiteness
  is not needed for the values to agree.

  The three frames are the generated ones (the reference's is its run with the result dropped); the ideal pass
  rewrote nothing, so the kernel's idealization is its own text and `preserves` is trivial.
-/
import proofs.«179085_j1760936591674_2_alg».proof.Defs
import proofs.«179085_j1760936591674_2_alg».proof.Proof.Gen.Kernel
import proofs.«179085_j1760936591674_2_alg».proof.Proof.Gen.Kernel.Skeleton
import proofs.«179085_j1760936591674_2_alg».proof.Proof.Gen.Kernel.Launch
import proofs.«179085_j1760936591674_2_alg».proof.Proof.Gen.Kernel.Points
import proofs.«179085_j1760936591674_2_alg».proof.Proof.Gen.Kernel.Frame
import proofs.«179085_j1760936591674_2_alg».proof.Proof.Gen.KernelIdeal
import proofs.«179085_j1760936591674_2_alg».proof.Proof.Gen.KernelIdeal.Skeleton
import proofs.«179085_j1760936591674_2_alg».proof.Proof.Gen.KernelIdeal.Launch
import proofs.«179085_j1760936591674_2_alg».proof.Proof.Gen.KernelIdeal.Points
import proofs.«179085_j1760936591674_2_alg».proof.Proof.Gen.KernelIdeal.Frame
import proofs.«179085_j1760936591674_2_alg».proof.Proof.Gen.ReferenceIdeal
import proofs.«179085_j1760936591674_2_alg».proof.Proof.Gen.KernelIdeal.Value
import proofs.«179085_j1760936591674_2_alg».proof.Proof.Gen.ReferenceIdeal.Run
import proofs.«179085_j1760936591674_2_alg».proof.Proof.Gen.ReferenceIdeal.Read
import proofs.«179085_j1760936591674_2_alg».proof.Proof.Gen.Pre_finite_inputs
import proofs.«179085_j1760936591674_2_alg».proof.Proof.RefLinear
import proofs.«179085_j1760936591674_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- Both programs end with their result at the linear update of the shared messages term by the weight and the bias:
    the kernel block by block, the reference through its transposed weight. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
